-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x2048 : Shape := ⟨3, ![8, 8192, 2048]⟩
abbrev S_ : Shape := ⟨0, ![]⟩

class Facts : Prop where
  bcast_S_S8x8192x2048 : S_.BroadcastsInDim S8x8192x2048 (![] : Fin 0 → Fin S8x8192x2048.rank)
  reducesTo_S8x8192x2048_S_d0_1_2 : S8x8192x2048.ReducesTo [0, 1, 2] S_
  h_S_ : 0 < S_.numel

variable [Facts]

def fn {F : FTy → Type} [FloatOps F] (main_arg0 : FVec F S8x8192x2048 .f32) : IVec S_ 1 :=
  let main_v0 : FVec F S8x8192x2048 .f32 := Host.absf main_arg0
  let main_cst : FVec F S_ .f32 := constant S_ .f32 0x7F800000#32
  let main_v1 : FVec F S8x8192x2048 .f32 := broadcastInDim S8x8192x2048 ![] bcast_S_S8x8192x2048 main_cst
  let main_v2 : IVec S8x8192x2048 1 := cmpf .olt main_v0 main_v1
  let main_c : IVec S_ 1 := constantI S_ 1 1#1
  let main_v3 : IVec S_ 1 := (fun x v => Host.reduce IntOp.andi x v reducesTo_S8x8192x2048_S_d0_1_2 h_S_) main_v2 main_c
  main_v3
-- ==== Kernel.lean ====
abbrev S8x8192x2048 : Shape := ⟨3, ![8, 8192, 2048]⟩
abbrev S65536x2048 : Shape := ⟨2, ![65536, 2048]⟩
abbrev S512x2048 : Shape := ⟨2, ![512, 2048]⟩

abbrev nBuf : Space → Nat
  | .hbm => 4
  | .vmem => 4
  | .smem => 0
  | _ => 0

abbrev bufTy : (tb : Table) → Fin (tcTables nBuf tb) → BufTy
  | .hbm, ⟨0, _⟩ => ⟨S8x8192x2048, .f32⟩
  | .hbm, ⟨1, _⟩ => ⟨S65536x2048, .f32⟩
  | .hbm, ⟨2, _⟩ => ⟨S65536x2048, .f32⟩
  | .hbm, ⟨3, _⟩ => ⟨S8x8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | _, _ => ⟨S8x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x8192x2048_S65536x2048 : S8x8192x2048.ShapeCasts S65536x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  shapeCasts_S65536x2048_S8x8192x2048 : S65536x2048.ShapeCasts S8x8192x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S65536x2048.size a
  hwx0_0 : ∀ i : grid0.Coords, EltTy.bits .f32 = 32 ∨ (Rect.block (s := S65536x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S65536x2048.size a
  hwx0_1 : ∀ i : grid0.Coords, EltTy.bits .f32 = 32 ∨ (Rect.block (s := S65536x2048) S512x2048.size (cc0_transform_1 i) (hinb0_1 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x8192x2048 : Shape := ⟨3, ![8, 8192, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x8192x2048, .f32⟩
  | .hbm, ⟨1, _⟩ => ⟨S8x8192x2048, .f32⟩
  | .hbm, ⟨2, _⟩ => ⟨S_, .f32⟩
  | .hbm, ⟨3, _⟩ => ⟨S8x8192x2048, .f32⟩
  | .hbm, ⟨4, _⟩ => ⟨S8x8192x2048, .f32⟩
  | .hbm, ⟨5, _⟩ => ⟨S8x8192x2048, .f32⟩
  | .hbm, ⟨6, _⟩ => ⟨S_, .f32⟩
  | .hbm, ⟨7, _⟩ => ⟨S8x8192x2048, .f32⟩
  | .hbm, ⟨8, _⟩ => ⟨S8x8192x2048, .f32⟩
  | .hbm, ⟨9, _⟩ => ⟨S8x8192x2048, .f32⟩
  | .hbm, ⟨10, _⟩ => ⟨S8x8192x2048, .f32⟩
  | .hbm, ⟨11, _⟩ => ⟨S_, .f32⟩
  | .hbm, ⟨12, _⟩ => ⟨S8x8192x2048, .f32⟩
  | .hbm, ⟨13, _⟩ => ⟨S8x8192x2048, .f32⟩
  | .hbm, ⟨14, _⟩ => ⟨S8x8192x2048, .f32⟩
  | .hbm, ⟨15, _⟩ => ⟨S_, .f32⟩
  | .hbm, ⟨16, _⟩ => ⟨S8x8192x2048, .f32⟩
  | .hbm, ⟨17, _⟩ => ⟨S8x8192x2048, .f32⟩
  | .hbm, ⟨18, _⟩ => ⟨S8x8192x2048, .f32⟩
  | .hbm, ⟨19, _⟩ => ⟨S_, .f32⟩
  | .hbm, ⟨20, _⟩ => ⟨S8x8192x2048, .f32⟩
  | .hbm, ⟨21, _⟩ => ⟨S8x8192x2048, .f32⟩
  | .hbm, ⟨22, _⟩ => ⟨S8x8192x2048, .f32⟩
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S8x8192x2048 : S_.BroadcastsInDim S8x8192x2048 (![] : Fin 0 → Fin S8x8192x2048.rank)

variable [Facts₀]

class Facts : Prop extends Facts₀ where

variable [Facts]
-- ==== Proof.KnotGelu.lean ====
/-
  The activation both programs compute, as one function on the extended reals.

  With m = ⌈x⌉ the "knot invariant" is k(x) = m · (m + 1), and the activation is the tanh form of GELU with k(x)³
  in place of x³:

      act x = (1/2 · x) · (1 + tanh (s · (x + g · ((k · k) · k))))

  where s and g are the two single-precision literals the programs share (0.797884583 for √(2/π) and 0.044715),
  kept as their binary words: the same word stands on both sides, so its value is never needed. On the extended
  reals ⌈·⌉ fixes the infinities and tanh sends them to ±1; nothing below depends on x being finite.
-/
import Idealize.ShloMosaic.PureOps.Ideal

noncomputable section

namespace Cert.KnotGelu

open Idealize.ShloMosaic

/-- The knot invariant ⌈x⌉ · (⌈x⌉ + 1). -/
def knot (x : EReal) : EReal :=
  Ideal.liftRound Int.ceil x * (Ideal.liftRound Int.ceil x + Ideal.ofBits .f32 0x3F800000#32)

/-- The activation: (x/2) · (1 + tanh (s · (x + g · k(x)³))), the cube grouped as (k · k) · k. -/
def act (x : EReal) : EReal :=
  (Ideal.ofBits .f32 0x3F000000#32 * x)
    * (Ideal.ofBits .f32 0x3F800000#32
        + Ideal.tanh (Ideal.ofBits .f32 0x3F4C422A#32
            * (x + Ideal.ofBits .f32 0x3D372713#32 * ((knot x * knot x) * knot x))))

end Cert.KnotGelu

end
-- ==== Proof.KernelBlock.lean ====
/-
  One block of the kernel: the value the body stores is the activation of the block it loaded, entry by entry.

  The body loads a [512, 2048] block, applies ceil, the knot product, the cube, the two scalings, tanh and the final
  product — every step acting on each entry alone — and stores the result over the whole output block. Read on the
  extended reals each step is the textbook operation, so the stored value at an entry is `act` of the loaded entry.
-/
import proofs.«157571_j53480932769916_2_alg».proof.Proof.Gen.KernelIdeal.Skeleton
import proofs.«157571_j53480932769916_2_alg».proof.Proof.KnotGelu
import Idealize.ShloMosaic.Lib.Pipeline.Value

noncomputable section

namespace Cert.KnotGelu

open Idealize.ShloMosaic Cert.KernelIdeal Cert.KernelIdeal.Gen

/-- The stored block is `act` of the loaded block at every entry. -/
theorem stored_block (v0 : Vec Ideal S512x2048 .f32) :
    k0_pay1 (F := Ideal) v0 = fun j => act (v0 j) := by
  unfold k0_pay1
  simp only [shapeCast_self]
  rfl

end Cert.KnotGelu

end
-- ==== Proof.KernelArray.lean ====
/-
  From blocks to the whole array.

  The kernel walks the [65536, 2048] array in 128 blocks of 512 rows: at point t the input block and the output
  block are both rows 512·t … 512·t + 511, all 2048 columns. So what point t writes back is the activation of
  exactly those rows of the input array, and since row r lies in the block of point r / 512 the blocks cover the
  output array: it ends holding the activation of the input array, entry by entry. The input array itself is the
  [8, 8192, 2048] argument reshaped to [65536, 2048].
-/
import proofs.«157571_j53480932769916_2_alg».proof.Proof.Gen.KernelIdeal.Frame
import proofs.«157571_j53480932769916_2_alg».proof.Proof.KernelBlock
import Idealize.ShloMosaic.Lib.Pipeline.Value
import Idealize.ShloMosaic.Lib.StableHlo.Run

set_option maxRecDepth 16384

noncomputable section

namespace Cert.KnotGelu

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The activation of every entry of a [65536, 2048] array. -/
def rowsAct (a : S65536x2048.Idx → EReal) : S65536x2048.Idx → EReal := fun i => act (a i)

/-- At point t both windows sit at block row t, block column 0. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the activation of the input array. -/
theorem written_back (c : Dev nD) (t : Fin cfg0.N) :
    (dats m 0 c).flushed 1 t = ((cfg0.win 1).blk t).view.read (Elt Ideal) (rowsAct (V m c main_v0)) := by
  show (cfg0.win 1).cut (grid0.coords t) ((dats m 0 c).after 1 t) = _
  rw [after0_1]
  unfold out0_1
  rw [View.canon_unit_zero zero_offsets]
  simp only [View.ld_unit_zero (S := S512x2048) zero_offsets]
  rw [stored_block]
  obtain ⟨e0, e1, e2, e3⟩ := block_index t
  funext j
  show act (V m c main_v0 (((cfg0.win 0).blk t).view.emb j)) = act (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 2048 + 1 * (j 1).val = win0_1.index t (1 : Fin 2) * 2048 + 1 * (j 1).val; omega
  rw [h0]

/-- An entry is in point t's output block iff each coordinate is in the block's range on its axis. -/
theorem mem_block (t : Fin cfg0.N) (i : S65536x2048.Idx) :
    i ∈ ((cfg0.win 1).blk t).view.set ↔ ∀ a : Fin 2, win0_1.index t a * S512x2048.size a ≤ (i a).val
      ∧ (i a).val < win0_1.index t a * S512x2048.size a + S512x2048.size a := by
  show i ∈ ((View.whole main_v1).slice (win0_1.rect t)).set ↔ _
  rw [View.set_slice_whole, Rect.mem_set_unit]
  exact Iff.rfl

/-- Row r is in the block of point r / 512: the blocks cover the array. -/
theorem covered (i : S65536x2048.Idx) :
    ∃ t : Fin cfg0.N, (cfg0.win 1).flush t = true ∧ i ∈ ((cfg0.win 1).blk t).view.set := by
  have hi0 : (i 0).val < 65536 := (i 0).isLt
  have hi1 : (i 1).val < 2048 := (i 1).isLt
  have hN : cfg0.N = 128 := N_0
  obtain ⟨t, ht⟩ : ∃ t : Fin cfg0.N, t.val = (i 0).val / 512 := ⟨⟨(i 0).val / 512, by rw [hN]; omega⟩, rfl⟩
  obtain ⟨-, -, e2, e3⟩ := block_index t
  refine ⟨t, flush0_1 t, ?_⟩
  rw [mem_block]
  intro a
  match a with
  | ⟨0, _⟩ =>
    show win0_1.index t (0 : Fin 2) * 512 ≤ (i 0).val ∧ (i 0).val < win0_1.index t (0 : Fin 2) * 512 + 512
    rw [e2, ht]; omega
  | ⟨1, _⟩ =>
    show win0_1.index t (1 : Fin 2) * 2048 ≤ (i 1).val ∧ (i 1).val < win0_1.index t (1 : Fin 2) * 2048 + 2048
    rw [e3]; omega

/-- The output array after the last point: the activation of the input array. -/
theorem array_after (c : Dev nD) : (dats m 0 c).arrAt 1 cfg0.N = rowsAct (V m c main_v0) :=
  (dats m 0 c).arrAt_eq_of_cover 1 (rowsAct (V m c main_v0)) (fun t _ => written_back m c t) covered

/-- The input array is the argument reshaped to rows. -/
theorem entry_rows (c : Dev nD) :
    (V m c main_v0 : S65536x2048.Idx → EReal)
      = shapeCast S65536x2048 (m ((c : Thread nD τ).loc main_arg0) : S8x8192x2048.Idx → EReal)
          Facts₀.shapeCasts_S8x8192x2048_S65536x2048 := by
  show StableHlo.after hostOps0 (fun b => m (c, b)) (Proc.devRef .tc main_v0) = _
  after_results
  rfl

end Cert.KnotGelu

end
-- ==== Proof.LibReshapeMap.lean ====
/-
  A pointwise map between two reshapes.

  A reshape keeps every element at its row-major position, so reshaping an array to another shape and back is
  the identity. Hence an array that is reshaped, mapped element by element (one operand, or two operands
  combined element by element), and reshaped back to its first shape is the same map applied to the array
  itself: nothing about the coordinates of either shape has to be computed.
-/
import Idealize.ShloMosaic.Lib.Pipeline.Value

namespace Cert.Lib.ReshapeMap

open Idealize.ShloMosaic

variable {s t : Shape} {α β γ : Type}

/-- Reshape `x` from `s` to `t`, apply `f` to every element, reshape back to `s`: that is `f` applied to every
    element of `x`. -/
theorem shapeCast_map_shapeCast (f : α → β) (x : s.Idx → α) (h : s.ShapeCasts t) (h' : t.ShapeCasts s) :
    shapeCast s (fun i => f (shapeCast t x h i)) h' = fun j => f (x j) :=
  funext fun j => congrArg f (congrFun (shapeCast_shapeCast x h h') j)

/-- The same for two operands combined element by element: reshape `x` and `y` from `s` to `t`, combine them by
    `f` at every index, reshape back: that is `f` of the elements of `x` and `y` at every index of `s`. -/
theorem shapeCast_map₂_shapeCast (f : α → β → γ) (x : s.Idx → α) (y : s.Idx → β) (h : s.ShapeCasts t)
    (h' : t.ShapeCasts s) :
    shapeCast s (fun i => f (shapeCast t x h i) (shapeCast t y h i)) h' = fun j => f (x j) (y j) :=
  funext fun j => congrArg₂ f (congrFun (shapeCast_shapeCast x h h') j) (congrFun (shapeCast_shapeCast y h h') j)

end Cert.Lib.ReshapeMap
-- ==== Proof.KernelRun.lean ====
/-
  The whole idealized kernel program: reshape, the blocked activation, reshape back.

  After the region the output array holds the activation of the argument reshaped to [65536, 2048]; the last host
  line reshapes it back to [8, 8192, 2048]. A reshape keeps every element at its row-major position, so a reshape,
  an entrywise map and the inverse reshape are the map itself: the program's result is the activation of the
  argument, entry by entry, and the argument is left as it was.
-/
import proofs.«157571_j53480932769916_2_alg».proof.Proof.KernelArray
import proofs.«157571_j53480932769916_2_alg».proof.Proof.LibReshapeMap

set_option maxRecDepth 16384

noncomputable section

namespace Cert.KnotGelu

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The activation of every entry of the [8, 8192, 2048] argument. -/
def cubeAct (x : S8x8192x2048.Idx → EReal) : S8x8192x2048.Idx → EReal := fun i => act (x i)

/-- What the lines after the region leave in the result buffer: the activation of the argument. -/
theorem result_after (c : Dev nD) :
    (Pipeline.afterTail₀ cfgs (dats m) 0 (V0 m) [hostOps1] c main_v2 : S8x8192x2048.Idx → EReal)
      = cubeAct (m ((c : Thread nD τ).loc main_arg0)) := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = rowsAct (V m c main_v0) :=
    (Pipeline.withArrays_arr spec0 launch0.win.arr_inj c _ _ 1).trans (array_after m c)
  rw [e, entry_rows]
  exact Cert.Lib.ReshapeMap.shapeCast_map_shapeCast act _ _ _

/-- Every weakly fair execution of the idealized kernel program ends with the result buffer at the activation of the
    argument and the argument unchanged. -/
theorem run : θ_run defs (onTc (τ := τ) (main (F := Ideal))) ⟨m, fun _ => 0, ρ⟩ fun r => ∀ c : Dev nD,
      r.2.mem ((c : Thread nD τ).loc main_v2) = cubeAct (m ((c : Thread nD τ).loc main_arg0))
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (result_after m c),
        ((h c).2 main_arg0 (Pipeline.mem_restRefs_of main_arg0 (by decide) (by decide))).trans
          (W_main_arg0 m (dats m) c)⟩)
    (run_main m ρ)

end Cert.KnotGelu

end
-- ==== Proof.Reference.lean ====
/-
  The reference computes the activation of every entry of its argument.

  Its twenty-two operations are all entrywise: ceil, sums and products, tanh, and scalars spread over the whole
  shape. Reading the last result at an index and unfolding stage by stage gives `act` of the argument's entry.
-/
import proofs.«157571_j53480932769916_2_alg».proof.Proof.Gen.ReferenceIdeal.Read
import proofs.«157571_j53480932769916_2_alg».proof.Proof.KnotGelu

noncomputable section

namespace Cert.KnotGelu

open Idealize.ShloMosaic Cert.ReferenceIdeal Cert.ReferenceIdeal.Read

/-- The reference's result is `act` of the argument, entry by entry. -/
theorem reference_eq (x : (⟨S8x8192x2048, .f32⟩ : BufTy).Contents (Elt Ideal)) :
    val_main_v16 (F := Ideal) x = fun i => act (x i) := by
  funext i
  rw [val_main_v16_apply, val_main_v5_apply, val_main_v15_apply, val_main_v4_apply, val_main_v14_apply,
    val_main_v13_apply, val_main_v12_apply, val_main_v11_apply, val_main_v10_apply, val_main_v9_apply,
    val_main_v8_apply, val_main_v7_apply, val_main_v6_apply, val_main_v3_apply, val_main_v2_apply,
    val_main_v1_apply, val_main_v0_apply, val_main_cst_apply, val_main_cst_0_apply, val_main_cst_1_apply,
    val_main_cst_2_apply, val_main_cst_3_apply]
  rfl

end Cert.KnotGelu

end
-- ==== Proof.lean ====
/-
  The knot-invariant GELU kernel against its jnp reference, on the extended reals.

  Both programs apply one entrywise function to a [8, 8192, 2048] array: with m = ⌈x⌉ and k = m · (m + 1),

      act x = (x / 2) · (1 + tanh (s · (x + g · k³)))

  with the same two single-precision literals s and g on both sides. The reference applies it with whole-array host
  operations. The kernel reshapes the array to [65536, 2048], walks it in 128 blocks of 512 rows, applies the same
  chain of operations to each block, and reshapes the result back. On the extended reals the kernel's ceil and tanh
  are the host's, the cube is grouped (k · k) · k in both programs, and a reshape moves no element, so the two
  results agree entry by entry for every input — finite or not: the precondition is not used.

  The three frames are the generated ones (the reference's is its generated run with the result dropped); the
  idealization rewrote nothing, so `preserves` is trivial; `algebraic` puts the kernel's run (KernelRun) beside the
  reference's generated run read stage by stage (Reference).
-/
import proofs.«157571_j53480932769916_2_alg».proof.Defs
import proofs.«157571_j53480932769916_2_alg».proof.Proof.Gen.Kernel
import proofs.«157571_j53480932769916_2_alg».proof.Proof.Gen.Kernel.Skeleton
import proofs.«157571_j53480932769916_2_alg».proof.Proof.Gen.Kernel.Launch
import proofs.«157571_j53480932769916_2_alg».proof.Proof.Gen.Kernel.Points
import proofs.«157571_j53480932769916_2_alg».proof.Proof.Gen.Kernel.Frame
import proofs.«157571_j53480932769916_2_alg».proof.Proof.Gen.KernelIdeal
import proofs.«157571_j53480932769916_2_alg».proof.Proof.Gen.KernelIdeal.Skeleton
import proofs.«157571_j53480932769916_2_alg».proof.Proof.Gen.KernelIdeal.Launch
import proofs.«157571_j53480932769916_2_alg».proof.Proof.Gen.KernelIdeal.Points
import proofs.«157571_j53480932769916_2_alg».proof.Proof.Gen.KernelIdeal.Frame
import proofs.«157571_j53480932769916_2_alg».proof.Proof.Gen.ReferenceIdeal
import proofs.«157571_j53480932769916_2_alg».proof.Proof.Gen.Pre_finite_inputs
import proofs.«157571_j53480932769916_2_alg».proof.Proof.Gen.ReferenceIdeal.Run
import proofs.«157571_j53480932769916_2_alg».proof.Proof.Gen.ReferenceIdeal.Read
import proofs.«157571_j53480932769916_2_alg».proof.Proof.KernelRun
import proofs.«157571_j53480932769916_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument both programs end with the activation of the argument in their result
    buffers: the kernel by its run, the reference by its run read stage by stage. -/
theorem algebraic : Cert.algebraic_KernelIdeal_ReferenceIdeal := by
  intro m ρ m' ρ' _ hagree
  refine ⟨fun c => Cert.KnotGelu.cubeAct (m ((c.tc : Thread Cert.KernelIdeal.nD Cert.KernelIdeal.τ).loc Cert.KernelIdeal.main_arg0)),
    Cert.KnotGelu.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.KnotGelu.reference_eq, hagree c]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
